-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S768x2048 : Shape := ⟨2, ![768, 2048]⟩
abbrev S2048x768 : Shape := ⟨2, ![2048, 768]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2048x768 : S_.BroadcastsInDim S2048x768 (![] : Fin 0 → Fin S2048x768.rank)
  reducesTo_S2048x768_S_d0_1 : S2048x768.ReducesTo [0, 1] S_

variable [Facts]

def fn_part1 {F : FTy → Type} [FloatOps F] (main_v13 : IVec S_ 1) (main_v16 : IVec S2048x768 1) : IVec S_ 1 :=
  let main_c_5 : IVec S_ 1 := constantI S_ 1 1#1
  let main_v17 : IVec S_ 1 := (fun x v => Host.reduce IntOp.andi x v reducesTo_S2048x768_S_d0_1 h_S_) main_v16 main_c_5
  let main_v18 : IVec S_ 1 := andi main_v13 main_v17
  main_v18

def fn {F : FTy → Type} [FloatOps F] (main_arg0 : FVec F S8192x2048 .f32) (main_arg1 : FVec F S768x2048 .f32) (main_arg2 : FVec F S768x2048 .f32) (main_arg3 : FVec F S2048x768 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S768x2048 .f32 := Host.absf main_arg2
  let main_cst_2 : FVec F S_ .f32 := constant S_ .f32 0x7F800000#32
  let main_v10 : FVec F S768x2048 .f32 := broadcastInDim S768x2048 ![] bcast_S_S768x2048 main_cst_2
  let main_v11 : IVec S768x2048 1 := cmpf .olt main_v9 main_v10
  let main_c_3 : IVec S_ 1 := constantI S_ 1 1#1
  let main_v12 : IVec S_ 1 := (fun x v => Host.reduce IntOp.andi x v reducesTo_S768x2048_S_d0_1 h_S_) main_v11 main_c_3
  let main_v13 : IVec S_ 1 := andi main_v8 main_v12
  let main_v14 : FVec F S2048x768 .f32 := Host.absf main_arg3
  let main_cst_4 : FVec F S_ .f32 := constant S_ .f32 0x7F800000#32
  let main_v15 : FVec F S2048x768 .f32 := broadcastInDim S2048x768 ![] bcast_S_S2048x768 main_cst_4
  let main_v16 : IVec S2048x768 1 := cmpf .olt main_v14 main_v15
  fn_part1 (F := F) main_v13 main_v16
-- ==== Kernel.lean ====
abbrev S8192x2048 : Shape := ⟨2, ![8192, 2048]⟩
abbrev S768x2048 : Shape := ⟨2, ![768, 2048]⟩
abbrev S2048x768 : Shape := ⟨2, ![2048, 768]⟩
abbrev S2048x1536 : Shape := ⟨2, ![2048, 1536]⟩
abbrev S512x2048 : Shape := ⟨2, ![512, 2048]⟩
abbrev S512x1536 : Shape := ⟨2, ![512, 1536]⟩
abbrev S512x768 : Shape := ⟨2, ![512, 768]⟩

abbrev nBuf : Space → Nat
  | .hbm => 12
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S768x2048, .f32⟩
  | .hbm, ⟨2, _⟩ => ⟨S768x2048, .f32⟩
  | .hbm, ⟨3, _⟩ => ⟨S2048x768, .f32⟩
  | .hbm, ⟨4, _⟩ => ⟨S2048x768, .f32⟩
  | .hbm, ⟨5, _⟩ => ⟨S2048x768, .bf16⟩
  | .hbm, ⟨6, _⟩ => ⟨S2048x768, .f32⟩
  | .hbm, ⟨7, _⟩ => ⟨S2048x768, .bf16⟩
  | .hbm, ⟨8, _⟩ => ⟨S2048x1536, .bf16⟩
  | .hbm, ⟨9, _⟩ => ⟨S768x2048, .f32⟩
  | .hbm, ⟨10, _⟩ => ⟨S768x2048, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1536, .bf16⟩
  | .local _ .vmem, ⟨3, _⟩ => ⟨S768x2048, .bf16⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S768x2048_S2048x768_1_0 : S768x2048.Transposes [1, 0] S2048x768
  bitsLt_bf16_f32 : FTy.bits .bf16 < FTy.bits .f32
  concatenates_S2048x768_S2048x768_S2048x1536_d1 : Shape.Concatenates [S2048x768, S2048x768] S2048x1536 1
  transposes_S2048x768_S768x2048_1_0 : S2048x768.Transposes [1, 0] S768x2048
  inb_S512x2048_S512x2048_0_0 : ∀ a, (![0, 0] : Fin 2 → Nat) a + S512x2048.size a ≤ S512x2048.size a
  h_S512x2048 : 0 < S512x2048.numel
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  slices_S512x1536_o0_0_S512x768 : S512x1536.Slices ![0, 0] S512x768
  slices_S512x1536_o0_768_S512x768 : S512x1536.Slices ![0, 768] S512x768
  dot_S512x2048_S2048x1536_S512x1536_1_0_0_1_n_n_wf : DotDims.WF S512x2048 S2048x1536 S512x1536 [1] [0] [0] [1] [] []
  dot_S512x768_S768x2048_S512x2048_1_0_0_1_n_n_wf : DotDims.WF S512x768 S768x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1536.size a ≤ S2048x1536.size a
  hwx0_1 : ∀ i : grid0.Coords, EltTy.bits .bf16 = 32 ∨ (Rect.block (s := S2048x1536) S2048x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S768x2048.size a
  hwx0_2 : ∀ i : grid0.Coords, EltTy.bits .bf16 = 32 ∨ (Rect.block (s := S768x2048) S768x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x1536_S512x1536_1_0_0_1_n_n : DotDims S512x2048 S2048x1536 S512x1536 where
  lhsContracting := [1]
  rhsContracting := [0]
  lhsNonContracting := [0]
  rhsNonContracting := [1]
  lhsBatch := []
  rhsBatch := []
  wf := dot_S512x2048_S2048x1536_S512x1536_1_0_0_1_n_n_wf
def dot_S512x768_S768x2048_S512x2048_1_0_0_1_n_n : DotDims S512x768 S768x2048 S512x2048 where
  lhsContracting := [1]
  rhsContracting := [0]
  lhsNonContracting := [0]
  rhsNonContracting := [1]
  lhsBatch := []
  rhsBatch := []
  wf := dot_S512x768_S768x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S768x2048 : Shape := ⟨2, ![768, 2048]⟩
abbrev S2048x768 : Shape := ⟨2, ![2048, 768]⟩
abbrev S8192x768 : Shape := ⟨2, ![8192, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S768x2048, .f32⟩
  | .hbm, ⟨2, _⟩ => ⟨S768x2048, .f32⟩
  | .hbm, ⟨3, _⟩ => ⟨S2048x768, .f32⟩
  | .hbm, ⟨4, _⟩ => ⟨S8192x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S_, .f32⟩
  | .hbm, ⟨9, _⟩ => ⟨S8192x768, .f32⟩
  | .hbm, ⟨10, _⟩ => ⟨S8192x768, .f32⟩
  | .hbm, ⟨11, _⟩ => ⟨S_, .f32⟩
  | .hbm, ⟨12, _⟩ => ⟨S8192x768, .f32⟩
  | .hbm, ⟨13, _⟩ => ⟨S8192x768, .f32⟩
  | .hbm, ⟨14, _⟩ => ⟨S8192x768, .f32⟩
  | .hbm, ⟨15, _⟩ => ⟨S8192x768, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8192x768 : S_.BroadcastsInDim S8192x768 (![] : Fin 0 → Fin S8192x768.rank)
  dot_S8192x2048_S768x2048_S8192x768_1_1_0_0_n_n_wf : DotDims.WF S8192x2048 S768x2048 S8192x768 [1] [1] [0] [0] [] []
  dot_S8192x768_S2048x768_S8192x2048_1_1_0_0_n_n_wf : DotDims.WF S8192x768 S2048x768 S8192x2048 [1] [1] [0] [0] [] []

variable [Facts₀]

def dot_S8192x2048_S768x2048_S8192x768_1_1_0_0_n_n : DotDims S8192x2048 S768x2048 S8192x768 where
  lhsContracting := [1]
  rhsContracting := [1]
  lhsNonContracting := [0]
  rhsNonContracting := [0]
  lhsBatch := []
  rhsBatch := []
  wf := dot_S8192x2048_S768x2048_S8192x768_1_1_0_0_n_n_wf
def dot_S8192x768_S2048x768_S8192x2048_1_1_0_0_n_n : DotDims S8192x768 S2048x768 S8192x2048 where
  lhsContracting := [1]
  rhsContracting := [1]
  lhsNonContracting := [0]
  rhsNonContracting := [0]
  lhsBatch := []
  rhsBatch := []
  wf := dot_S8192x768_S2048x768_S8192x2048_1_1_0_0_n_n_wf

class Facts : Prop extends Facts₀ where

variable [Facts]
-- ==== Proof.GatedMlp.lean ====
/-
  The gated feed-forward layer, entry by entry, over the extended reals.

  A token is a row of `x`: 2048 numbers. It is projected twice, against the rows of two 768 × 2048 weights. Hidden
  unit `k` of token `r` has the gate pre-activation `g = Σ_h x[r,h] · gw[k,h]` and the up projection
  `u = Σ_h x[r,h] · uw[k,h]`, and holds `g · logistic(g) · u`. The layer's output at `(r, n)` is the inner
  product of the token's 768 hidden units with row `n` of the 2048 × 768 down weight:

      out[r, n] = Σ_k  (g_k · logistic(g_k) · u_k) · dw[n, k].

  Every sum is a finite sum in the commutative monoid of the extended reals, so neither the order nor the grouping
  of its terms matters; no law that would need finite entries (distributivity, cancellation) is used anywhere.
-/
import Idealize.ShloMosaic.PureOps.Ideal
import Idealize.ShloMosaic.Lib.ValueIdx

noncomputable section

namespace Cert.GatedMlp

open Idealize.ShloMosaic Idealize.ShloMosaic.ValueIdx

/-- The inner product of row `r` of `x` with row `k` of a 768 × 2048 weight. -/
def proj (x : (⟨2, ![8192, 2048]⟩ : Shape).Idx → EReal) (w : (⟨2, ![768, 2048]⟩ : Shape).Idx → EReal)
    (r : Fin 8192) (k : Fin 768) : EReal :=
  ∑ h : Fin 2048, x (ix2 r h) * w (ix2 k h)

/-- One hidden unit from its two projections: the gate pre-activation `g` times its logistic, times the up
    projection `u`. -/
def gated (g u : EReal) : EReal := g * Ideal.logistic g * u

/-- Hidden unit `k` of token `r`. -/
def hidden (x : (⟨2, ![8192, 2048]⟩ : Shape).Idx → EReal) (gw uw : (⟨2, ![768, 2048]⟩ : Shape).Idx → EReal)
    (r : Fin 8192) (k : Fin 768) : EReal :=
  gated (proj x gw r k) (proj x uw r k)

/-- The layer's output at token `r`, feature `n`: the token's hidden units against row `n` of the down weight. -/
def layerAt (x : (⟨2, ![8192, 2048]⟩ : Shape).Idx → EReal) (gw uw : (⟨2, ![768, 2048]⟩ : Shape).Idx → EReal)
    (dw : (⟨2, ![2048, 768]⟩ : Shape).Idx → EReal) (r : Fin 8192) (n : Fin 2048) : EReal :=
  ∑ k : Fin 768, hidden x gw uw r k * dw (ix2 n k)

/-- The layer's output array. -/
def layer (x : (⟨2, ![8192, 2048]⟩ : Shape).Idx → EReal) (gw uw : (⟨2, ![768, 2048]⟩ : Shape).Idx → EReal)
    (dw : (⟨2, ![2048, 768]⟩ : Shape).Idx → EReal) : (⟨2, ![8192, 2048]⟩ : Shape).Idx → EReal :=
  fun i => layerAt x gw uw dw (i 0) (i 1)

/-- The output array at an index given by its coordinates. -/
theorem layer_ix2 (x : (⟨2, ![8192, 2048]⟩ : Shape).Idx → EReal) (gw uw : (⟨2, ![768, 2048]⟩ : Shape).Idx → EReal)
    (dw : (⟨2, ![2048, 768]⟩ : Shape).Idx → EReal) (r : Fin 8192) (n : Fin 2048) :
    layer x gw uw dw (ix2 r n) = layerAt x gw uw dw r n := rfl

end Cert.GatedMlp

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.BlockPayload.lean ====
/-
  What the kernel body computes from one block of 512 tokens, read at an entry.

  The body multiplies the block `x0` (512 × 2048) by the fused weight `x1` (2048 × 1536), whose first 768 columns
  carry the gate projection and whose last 768 the up projection; entry `(p, j)` of that product is the inner product
  of row `p` of the block with column `j` of the fused weight. It cuts the product into its two halves, forms
  `g · logistic(g) · u` entry by entry, and multiplies the result (512 × 768) by the transposed down weight `x2`
  (768 × 2048). Both products accumulate into zero, and a change of float format is the identity over the extended
  reals, so the stored value at `(p, n)` is the sum over the 768 hidden units `k` of the gated pair of inner products
  at columns `k` and `768 + k`, times `x2[k, n]`.
-/
import proofs.«118135_j20383914787230_2_alg».proof.Proof.Gen.KernelIdeal.Skeleton
import proofs.«118135_j20383914787230_2_alg».proof.Proof.GatedMlp
import proofs.«118135_j20383914787230_2_alg».proof.Proof.LibGram
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.GatedMlp

/-- Row `p` of a 512 × 2048 block of tokens against column `j` of the fused 2048 × 1536 weight. -/
def rowDot (x0 : FVec Ideal S512x2048 .f32) (x1 : FVec Ideal S2048x1536 .bf16) (p : Fin 512) (j : Fin 1536) : EReal :=
  ∑ h : Fin 2048, x0 (ix2 p h) * x1 (ix2 h j)

/-! ## The two products, read at an entry -/

/-- The dimension numbers pair output row `j 0` with the left operand's row. -/
theorem fused_lhs_row (j : S512x1536.Idx) (q : dot_S512x2048_S2048x1536_S512x1536_1_0_0_1_n_n.contr.Idx) : (dot_S512x2048_S2048x1536_S512x1536_1_0_0_1_n_n.lhsIdx j q 0).val = (j 0).val := by
  unfold DotDims.lhsIdx
  rw [dif_neg (show ¬(0 : Fin S512x2048.rank) ∈ dot_S512x2048_S2048x1536_S512x1536_1_0_0_1_n_n.lhsBatch by decide),
    dif_pos (show (0 : Fin S512x2048.rank) ∈ dot_S512x2048_S2048x1536_S512x1536_1_0_0_1_n_n.lhsNonContracting by decide)]
  rfl
/-- The left operand's column is the contraction coordinate. -/
theorem fused_lhs_col (j : S512x1536.Idx) (q : dot_S512x2048_S2048x1536_S512x1536_1_0_0_1_n_n.contr.Idx) : (dot_S512x2048_S2048x1536_S512x1536_1_0_0_1_n_n.lhsIdx j q 1).val = (q ⟨0, by decide⟩).val :=
  dot_S512x2048_S2048x1536_S512x1536_1_0_0_1_n_n.lhsIdx_val_of_single rfl j q
/-- The right operand's row is the contraction coordinate. -/
theorem fused_rhs_row (j : S512x1536.Idx) (q : dot_S512x2048_S2048x1536_S512x1536_1_0_0_1_n_n.contr.Idx) : (dot_S512x2048_S2048x1536_S512x1536_1_0_0_1_n_n.rhsIdx j q 0).val = (q ⟨0, by decide⟩).val :=
  dot_S512x2048_S2048x1536_S512x1536_1_0_0_1_n_n.rhsIdx_val_of_single rfl j q
/-- The dimension numbers pair output column `j 1` with the right operand's column. -/
theorem fused_rhs_col (j : S512x1536.Idx) (q : dot_S512x2048_S2048x1536_S512x1536_1_0_0_1_n_n.contr.Idx) : (dot_S512x2048_S2048x1536_S512x1536_1_0_0_1_n_n.rhsIdx j q 1).val = (j 1).val := by
  unfold DotDims.rhsIdx
  rw [dif_neg (show ¬(1 : Fin S2048x1536.rank) ∈ dot_S512x2048_S2048x1536_S512x1536_1_0_0_1_n_n.rhsBatch by decide),
    dif_pos (show (1 : Fin S2048x1536.rank) ∈ dot_S512x2048_S2048x1536_S512x1536_1_0_0_1_n_n.rhsNonContracting by decide)]
  rfl

/-- The first product, accumulated into zero, at `(p, j)`: the inner product of the block's row `p` with the fused
    weight's column `j`. -/
theorem fused_at (A : FVec Ideal S512x2048 .bf16) (B : FVec Ideal S2048x1536 .bf16) (p : Fin 512) (j : Fin 1536) :
    matmul dot_S512x2048_S2048x1536_S512x1536_1_0_0_1_n_n none A B (constant S512x1536 .f32 0x00000000#32) (ix2 p j)
      = ∑ h : Fin 2048, A (ix2 p h) * B (ix2 h j) := by
  refine Cert.Lib.Gram.matmul_zero_single_apply dot_S512x2048_S2048x1536_S512x1536_1_0_0_1_n_n 2048 rfl rfl none A B
    (ix2 p j) (fun h => ix2 p h) (fun h => ix2 h j) ?_ ?_
  · intro h
    have hk := contrEquiv1_symm_val dot_S512x2048_S2048x1536_S512x1536_1_0_0_1_n_n 2048 rfl rfl h
    exact funext fun a => Fin.ext (by
      match a with
      | ⟨0, _⟩ => exact fused_lhs_row _ _
      | ⟨1, _⟩ => exact (fused_lhs_col _ _).trans hk)
  · intro h
    have hk := contrEquiv1_symm_val dot_S512x2048_S2048x1536_S512x1536_1_0_0_1_n_n 2048 rfl rfl h
    exact funext fun a => Fin.ext (by
      match a with
      | ⟨0, _⟩ => exact (fused_rhs_row _ _).trans hk
      | ⟨1, _⟩ => exact fused_rhs_col _ _)

/-- The dimension numbers pair output row `j 0` with the left operand's row. -/
theorem down_lhs_row (j : S512x2048.Idx) (q : dot_S512x768_S768x2048_S512x2048_1_0_0_1_n_n.contr.Idx) : (dot_S512x768_S768x2048_S512x2048_1_0_0_1_n_n.lhsIdx j q 0).val = (j 0).val := by
  unfold DotDims.lhsIdx
  rw [dif_neg (show ¬(0 : Fin S512x768.rank) ∈ dot_S512x768_S768x2048_S512x2048_1_0_0_1_n_n.lhsBatch by decide),
    dif_pos (show (0 : Fin S512x768.rank) ∈ dot_S512x768_S768x2048_S512x2048_1_0_0_1_n_n.lhsNonContracting by decide)]
  rfl
/-- The left operand's column is the contraction coordinate. -/
theorem down_lhs_col (j : S512x2048.Idx) (q : dot_S512x768_S768x2048_S512x2048_1_0_0_1_n_n.contr.Idx) : (dot_S512x768_S768x2048_S512x2048_1_0_0_1_n_n.lhsIdx j q 1).val = (q ⟨0, by decide⟩).val :=
  dot_S512x768_S768x2048_S512x2048_1_0_0_1_n_n.lhsIdx_val_of_single rfl j q
/-- The right operand's row is the contraction coordinate. -/
theorem down_rhs_row (j : S512x2048.Idx) (q : dot_S512x768_S768x2048_S512x2048_1_0_0_1_n_n.contr.Idx) : (dot_S512x768_S768x2048_S512x2048_1_0_0_1_n_n.rhsIdx j q 0).val = (q ⟨0, by decide⟩).val :=
  dot_S512x768_S768x2048_S512x2048_1_0_0_1_n_n.rhsIdx_val_of_single rfl j q
/-- The dimension numbers pair output column `j 1` with the right operand's column. -/
theorem down_rhs_col (j : S512x2048.Idx) (q : dot_S512x768_S768x2048_S512x2048_1_0_0_1_n_n.contr.Idx) : (dot_S512x768_S768x2048_S512x2048_1_0_0_1_n_n.rhsIdx j q 1).val = (j 1).val := by
  unfold DotDims.rhsIdx
  rw [dif_neg (show ¬(1 : Fin S768x2048.rank) ∈ dot_S512x768_S768x2048_S512x2048_1_0_0_1_n_n.rhsBatch by decide),
    dif_pos (show (1 : Fin S768x2048.rank) ∈ dot_S512x768_S768x2048_S512x2048_1_0_0_1_n_n.rhsNonContracting by decide)]
  rfl

/-- The second product, accumulated into zero, at `(p, n)`: row `p` of the hidden block against column `n` of the
    transposed down weight. -/
theorem down_at (A : FVec Ideal S512x768 .bf16) (B : FVec Ideal S768x2048 .bf16) (p : Fin 512) (n : Fin 2048) :
    matmul dot_S512x768_S768x2048_S512x2048_1_0_0_1_n_n none A B (constant S512x2048 .f32 0x00000000#32) (ix2 p n)
      = ∑ k : Fin 768, A (ix2 p k) * B (ix2 k n) := by
  refine Cert.Lib.Gram.matmul_zero_single_apply dot_S512x768_S768x2048_S512x2048_1_0_0_1_n_n 768 rfl rfl none A B
    (ix2 p n) (fun k => ix2 p k) (fun k => ix2 k n) ?_ ?_
  · intro k
    have hk := contrEquiv1_symm_val dot_S512x768_S768x2048_S512x2048_1_0_0_1_n_n 768 rfl rfl k
    exact funext fun a => Fin.ext (by
      match a with
      | ⟨0, _⟩ => exact down_lhs_row _ _
      | ⟨1, _⟩ => exact (down_lhs_col _ _).trans hk)
  · intro k
    have hk := contrEquiv1_symm_val dot_S512x768_S768x2048_S512x2048_1_0_0_1_n_n 768 rfl rfl k
    exact funext fun a => Fin.ext (by
      match a with
      | ⟨0, _⟩ => exact (down_rhs_row _ _).trans hk
      | ⟨1, _⟩ => exact down_rhs_col _ _)

/-! ## The two halves of the first product, and the stored value -/

/-- The left half of a 512 × 1536 array, at `(p, k)`: the array at column `k`. -/
theorem left_half_at (v : FVec Ideal S512x1536 .f32) (p : Fin 512) (k : Fin 768) :
    extractStridedSlice S512x768 ![0, 0] v slices_S512x1536_o0_0_S512x768 (ix2 p k) = v (ix2 p ⟨k.val, by omega⟩) :=
  slice2_axis1_apply 0 v slices_S512x1536_o0_0_S512x768 p k ⟨k.val, by omega⟩ (Nat.zero_add _).symm

/-- The right half of a 512 × 1536 array, at `(p, k)`: the array at column `768 + k`. -/
theorem right_half_at (v : FVec Ideal S512x1536 .f32) (p : Fin 512) (k : Fin 768) :
    extractStridedSlice S512x768 ![0, 768] v slices_S512x1536_o0_768_S512x768 (ix2 p k) = v (ix2 p ⟨768 + k.val, by omega⟩) :=
  slice2_axis1_apply 768 v slices_S512x1536_o0_768_S512x768 p k ⟨768 + k.val, by omega⟩ rfl

/-- THE STORED VALUE at `(p, n)`: over the 768 hidden units, the gated pair of inner products of the block's row
    `p` with the fused weight's columns `k` and `768 + k`, times the transposed down weight at `(k, n)`. -/
theorem payload_at (x0 : FVec Ideal S512x2048 .f32) (x1 : FVec Ideal S2048x1536 .bf16) (x2 : FVec Ideal S768x2048 .bf16)
    (p : Fin 512) (n : Fin 2048) :
    k0_pay1 (F := Ideal) x0 x1 x2 (ix2 p n)
      = ∑ k : Fin 768, gated (rowDot x0 x1 p ⟨k.val, by omega⟩) (rowDot x0 x1 p ⟨768 + k.val, by omega⟩) * x2 (ix2 k n) := by
  unfold k0_pay1
  refine (down_at _ _ p n).trans ?_
  refine Finset.sum_congr rfl fun k _ => ?_
  simp only [shapeCast_self]
  refine congrArg (fun z => z * x2 (ix2 k n)) ?_
  show (_ * Ideal.logistic _) * _ = _
  rw [left_half_at, right_half_at, fused_at, fused_at]
  rfl

/-- ONE BLOCK IS 512 ROWS OF THE LAYER. If row `p` of the block `x0` is row `r` of `X`, the fused weight's left half is
    the transposed gate weight and its right half the transposed up weight, and `x2` is the transposed down weight,
    then the stored value at `(p, n)` is the layer's output at `(r, n)`: the same sums, term by term. -/
theorem block_entry (X : (⟨2, ![8192, 2048]⟩ : Shape).Idx → EReal) (GW UW : (⟨2, ![768, 2048]⟩ : Shape).Idx → EReal)
    (DW : (⟨2, ![2048, 768]⟩ : Shape).Idx → EReal)
    (x0 : FVec Ideal S512x2048 .f32) (x1 : FVec Ideal S2048x1536 .bf16) (x2 : FVec Ideal S768x2048 .bf16)
    (r : Fin 8192) (p : Fin 512) (n : Fin 2048)
    (h0 : ∀ h : Fin 2048, x0 (ix2 p h) = X (ix2 r h))
    (hg : ∀ (h : Fin 2048) (k : Fin 768), x1 (ix2 h ⟨k.val, by omega⟩) = GW (ix2 k h))
    (hu : ∀ (h : Fin 2048) (k : Fin 768), x1 (ix2 h ⟨768 + k.val, by omega⟩) = UW (ix2 k h))
    (hd : ∀ k : Fin 768, x2 (ix2 k n) = DW (ix2 n k)) :
    k0_pay1 (F := Ideal) x0 x1 x2 (ix2 p n) = layerAt X GW UW DW r n := by
  rw [payload_at]
  unfold layerAt Cert.GatedMlp.hidden proj rowDot
  refine Finset.sum_congr rfl fun k _ => ?_
  rw [hd k]
  refine congrArg (fun z => z * DW (ix2 n k)) ?_
  refine congrArg₂ gated ?_ ?_
  · exact Finset.sum_congr rfl fun h _ => by rw [h0 h, hg h k]
  · exact Finset.sum_congr rfl fun h _ => by rw [h0 h, hu h k]

/-- The same at an index `y` of the block given with its coordinates `(p, n)`. -/
theorem block_entry_at (X : (⟨2, ![8192, 2048]⟩ : Shape).Idx → EReal) (GW UW : (⟨2, ![768, 2048]⟩ : Shape).Idx → EReal)
    (DW : (⟨2, ![2048, 768]⟩ : Shape).Idx → EReal)
    (x0 : FVec Ideal S512x2048 .f32) (x1 : FVec Ideal S2048x1536 .bf16) (x2 : FVec Ideal S768x2048 .bf16)
    (y : S512x2048.Idx) (r : Fin 8192) (p : Fin 512) (n : Fin 2048) (hy : y = ix2 p n)
    (h0 : ∀ h : Fin 2048, x0 (ix2 p h) = X (ix2 r h))
    (hg : ∀ (h : Fin 2048) (k : Fin 768), x1 (ix2 h ⟨k.val, by omega⟩) = GW (ix2 k h))
    (hu : ∀ (h : Fin 2048) (k : Fin 768), x1 (ix2 h ⟨768 + k.val, by omega⟩) = UW (ix2 k h))
    (hd : ∀ k : Fin 768, x2 (ix2 k n) = DW (ix2 n k)) :
    k0_pay1 (F := Ideal) x0 x1 x2 y = layerAt X GW UW DW r n := by
  subst hy
  exact block_entry X GW UW DW x0 x1 x2 r p n h0 hg hu hd

end Cert.KernelIdeal.Block

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.FusedWeights.lean ====
/-
  The two weight arrays the kernel's region finds, entry by entry.

  Before the region the program transposes the gate weight and the up weight (each 768 × 2048) to 2048 × 768 and sets
  the two transposes side by side: the fused 2048 × 1536 weight has the gate weight's `[k, h]` at `(h, k)` and the up
  weight's `[k, h]` at `(h, 768 + k)`. It also transposes the down weight (2048 × 768) to 768 × 2048, which has the
  down weight's `[n, k]` at `(k, n)`. The changes of float format in between are the identity over the extended reals.
-/
import proofs.«118135_j20383914787230_2_alg».proof.Proof.Gen.KernelIdeal.Frame
import proofs.«118135_j20383914787230_2_alg».proof.Proof.LibConcatCols
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The fused weight as the region finds it: the two transposed weights side by side. -/
theorem fused_eq (c : Dev nD) :
    (V m c main_v4 : S2048x1536.Idx → EReal)
      = concatenate S2048x1536 1
          [⟨S2048x768, truncf (F := Ideal) .bf16 (transpose S2048x768 [1, 0] (m ((c : Thread nD τ).loc main_arg1) : S768x2048.Idx → EReal) transposes_S768x2048_S2048x768_1_0) bitsLt_bf16_f32⟩,
           ⟨S2048x768, truncf (F := Ideal) .bf16 (transpose S2048x768 [1, 0] (m ((c : Thread nD τ).loc main_arg2) : S768x2048.Idx → EReal) transposes_S768x2048_S2048x768_1_0) bitsLt_bf16_f32⟩]
          concatenates_S2048x768_S2048x768_S2048x1536_d1 := by
  dsimp only [V, hostOps0]
  after_results <;> rfl

/-- The transposed down weight as the region finds it. -/
theorem down_eq (c : Dev nD) :
    (V m c main_v6 : S768x2048.Idx → EReal)
      = truncf (F := Ideal) .bf16 (transpose S768x2048 [1, 0] (m ((c : Thread nD τ).loc main_arg3) : S2048x768.Idx → EReal) transposes_S2048x768_S768x2048_1_0) bitsLt_bf16_f32 := by
  dsimp only [V, hostOps0]
  after_results <;> rfl

/-- The fused weight at `(h, k)`, `k < 768`: the gate weight at `(k, h)`. -/
theorem fused_gate_at (c : Dev nD) (h : Fin 2048) (k : Fin 768) :
    (V m c main_v4 : S2048x1536.Idx → EReal) (ix2 h ⟨k.val, by omega⟩)
      = (m ((c : Thread nD τ).loc main_arg1) : S768x2048.Idx → EReal) (ix2 k h) := by
  rw [fused_eq]
  refine (Cert.Lib.ConcatCols.concat_cols_left _ _ concatenates_S2048x768_S2048x768_S2048x1536_d1 h ⟨k.val, by omega⟩ k rfl).trans ?_
  exact transpose_ix2_apply _ transposes_S768x2048_S2048x768_1_0 h k

/-- The fused weight at `(h, 768 + k)`: the up weight at `(k, h)`. -/
theorem fused_up_at (c : Dev nD) (h : Fin 2048) (k : Fin 768) :
    (V m c main_v4 : S2048x1536.Idx → EReal) (ix2 h ⟨768 + k.val, by omega⟩)
      = (m ((c : Thread nD τ).loc main_arg2) : S768x2048.Idx → EReal) (ix2 k h) := by
  rw [fused_eq]
  refine (Cert.Lib.ConcatCols.concat_cols_right _ _ concatenates_S2048x768_S2048x768_S2048x1536_d1 h ⟨768 + k.val, by omega⟩ k rfl).trans ?_
  exact transpose_ix2_apply _ transposes_S768x2048_S2048x768_1_0 h k

/-- The transposed down weight at `(k, n)`: the down weight at `(n, k)`. -/
theorem down_at (c : Dev nD) (k : Fin 768) (n : Fin 2048) :
    (V m c main_v6 : S768x2048.Idx → EReal) (ix2 k n)
      = (m ((c : Thread nD τ).loc main_arg3) : S2048x768.Idx → EReal) (ix2 n k) := by
  rw [down_eq]
  exact transpose_ix2_apply _ transposes_S2048x768_S768x2048_1_0 k n

end Cert.KernelIdeal.Weights

end
-- ==== Proof.KernelValue.lean ====
/-
  The kernel's result array is the gated feed-forward layer.

  The grid has 16 points. At point `t` the token window holds rows `512 t … 512 t + 511` of `x`, the two weight
  windows hold the whole fused weight and the whole transposed down weight (their block index is (0, 0) at every
  point), and the output window's block is rows `512 t … 512 t + 511` of the result. So what point `t` writes back
  at `(p, n)` is the body's stored value of those blocks, which is the layer's output at `(512 t + p, n)`: each point
  writes its block of ONE array, the layer's output. The 16 blocks cover the result array — row `r` lies in the
  block of point `r / 512` — so the array ends holding the layer's output everywhere.
-/
import proofs.«118135_j20383914787230_2_alg».proof.Proof.Gen.KernelIdeal.Value
import proofs.«118135_j20383914787230_2_alg».proof.Proof.BlockPayload
import proofs.«118135_j20383914787230_2_alg».proof.Proof.FusedWeights
import Idealize.ShloMosaic.Lib.Pipeline.Value
import Idealize.ShloMosaic.Lib.ValueIdx

noncomputable section

namespace Cert.KernelIdeal.LayerValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.GatedMlp

variable (m : (ℓ : Loc nD τ sig) → Buf (Elt Ideal) ℓ) (ρ : Dev nD → PrngReg)

theorem zero_offsets : (![0, 0] : Fin 2 → Nat) = fun _ => 0 := funext fun a => by fin_cases a <;> rfl

/-- The index maps, decided over the 16 grid points: the token window and the output window sit at block `(t, 0)`,
    the two weight windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input windows' blocks, read at an entry -/

/-- The token window's block at point `t`, row `p`: row `512 t + p` of `x`. -/
theorem tokens_at (c : Dev nD) (t : Fin cfg0.N) (p : Fin 512) (h : Fin 2048) (r : Fin 8192) (hr : r.val = 512 * t.val + p.val) :
    (iblk m c 0 t : Vec Ideal S512x2048 .f32) (ix2 p h)
      = (m ((c : Thread nD τ).loc main_arg0) : S8192x2048.Idx → EReal) (ix2 r h) := by
  obtain ⟨e0, e1, -⟩ := idx_facts t
  unfold iblk
  rw [View.read_apply]
  show V m c main_arg0 _ = _
  rw [V_main_arg0]
  refine congrArg (m ((c : Thread nD τ).loc main_arg0) : S8192x2048.Idx → EReal) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * h.val = h.val; rw [e1]; omega

/-- The fused-weight window's block, at every point, is the whole fused weight. -/
theorem fused_block_at (c : Dev nD) (t : Fin cfg0.N) (h : Fin 2048) (j : Fin 1536) :
    (iblk m c 1 t : Vec Ideal S2048x1536 .bf16) (ix2 h j) = (V m c main_v4 : S2048x1536.Idx → EReal) (ix2 h j) := by
  obtain ⟨-, -, e0, e1, -⟩ := idx_facts t
  unfold iblk
  rw [View.read_apply]
  show V m c main_v4 _ = _
  refine congrArg (V m c main_v4 : S2048x1536.Idx → EReal) (funext fun a => Fin.ext ?_)
  match a with
  | ⟨0, _⟩ => show win0_1.index t (0 : Fin 2) * 2048 + 1 * h.val = h.val; rw [e0]; omega
  | ⟨1, _⟩ => show win0_1.index t (1 : Fin 2) * 1536 + 1 * j.val = j.val; rw [e1]; omega

/-- The down-weight window's block, at every point, is the whole transposed down weight. -/
theorem down_block_at (c : Dev nD) (t : Fin cfg0.N) (k : Fin 768) (n : Fin 2048) :
    (iblk m c 2 t : Vec Ideal S768x2048 .bf16) (ix2 k n) = (V m c main_v6 : S768x2048.Idx → EReal) (ix2 k n) := by
  obtain ⟨-, -, -, -, e0, e1, -⟩ := idx_facts t
  unfold iblk
  rw [View.read_apply]
  show V m c main_v6 _ = _
  refine congrArg (V m c main_v6 : S768x2048.Idx → EReal) (funext fun a => Fin.ext ?_)
  match a with
  | ⟨0, _⟩ => show win0_2.index t (0 : Fin 2) * 768 + 1 * k.val = k.val; rw [e0]; omega
  | ⟨1, _⟩ => show win0_2.index t (1 : Fin 2) * 2048 + 1 * n.val = n.val; rw [e1]; omega

/-! ## What each point writes back, the cover, and the run -/

/-- The layer's output array of the four argument arrays as launched. -/
abbrev result (c : Dev nD) : S8192x2048.Idx → EReal :=
  layer (m ((c : Thread nD τ).loc main_arg0)) (m ((c : Thread nD τ).loc main_arg1)) (m ((c : Thread nD τ).loc main_arg2))
    (m ((c : Thread nD τ).loc main_arg3))

/-- WHAT POINT `t` WRITES BACK is block `t` of the layer's output. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S512x2048) zero_offsets, View.ld_unit_zero (S := S2048x1536) zero_offsets,
    View.ld_unit_zero (S := S768x2048) zero_offsets]
  obtain ⟨-, -, -, -, -, -, e0, e1⟩ := idx_facts t
  have ht : t.val < 16 := Nat.lt_of_lt_of_eq t.isLt N_0
  funext y
  have hy0 : (y 0).val < 512 := (y 0).isLt
  have hy1 : (y 1).val < 2048 := (y 1).isLt
  have hy : y = ix2 (⟨(y 0).val, hy0⟩ : Fin 512) (⟨(y 1).val, hy1⟩ : Fin 2048) := funext fun a => by
    match a with
    | ⟨0, _⟩ => rfl
    | ⟨1, _⟩ => rfl
  have hr : (⟨512 * t.val + (y 0).val, by omega⟩ : Fin 8192) = (((cfg0.win 3).blk t).view.emb y) 0 := Fin.ext (by
    show 512 * t.val + (y 0).val = win0_3.index t (0 : Fin 2) * 512 + 1 * (y 0).val
    rw [e0]; omega)
  have hn : (⟨(y 1).val, hy1⟩ : Fin 2048) = (((cfg0.win 3).blk t).view.emb y) 1 := Fin.ext (by
    show (y 1).val = win0_3.index t (1 : Fin 2) * 2048 + 1 * (y 1).val
    rw [e1]; omega)
  show k0_pay1 (iblk m c 0 t) (iblk m c 1 t) (iblk m c 2 t) y = result m c (((cfg0.win 3).blk t).view.emb y)
  refine (Cert.KernelIdeal.Block.block_entry_at
    (m ((c : Thread nD τ).loc main_arg0)) (m ((c : Thread nD τ).loc main_arg1)) (m ((c : Thread nD τ).loc main_arg2))
    (m ((c : Thread nD τ).loc main_arg3)) (iblk m c 0 t) (iblk m c 1 t) (iblk m c 2 t) y
    ⟨512 * t.val + (y 0).val, by omega⟩ ⟨(y 0).val, hy0⟩ ⟨(y 1).val, hy1⟩ hy
    (fun h => tokens_at m c t ⟨(y 0).val, hy0⟩ h ⟨512 * t.val + (y 0).val, by omega⟩ rfl)
    (fun h k => (fused_block_at m c t h ⟨k.val, by omega⟩).trans (Cert.KernelIdeal.Weights.fused_gate_at m c h k))
    (fun h k => (fused_block_at m c t h ⟨768 + k.val, by omega⟩).trans (Cert.KernelIdeal.Weights.fused_up_at m c h k))
    (fun k => (down_block_at m c t k ⟨(y 1).val, hy1⟩).trans (Cert.KernelIdeal.Weights.down_at m c k ⟨(y 1).val, hy1⟩))).trans ?_
  exact congrArg₂ (layerAt (m ((c : Thread nD τ).loc main_arg0)) (m ((c : Thread nD τ).loc main_arg1))
    (m ((c : Thread nD τ).loc main_arg2)) (m ((c : Thread nD τ).loc main_arg3))) hr hn

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v7).slice (win0_3.rect t)).set ↔ _
  rw [View.set_slice_whole, Rect.mem_set_unit]
  exact Iff.rfl

/-- THE 16 BLOCKS COVER THE ARRAY: row `r` lies in the block of point `r / 512`. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, Nat.lt_of_lt_of_eq (by omega : (i 0).val / 512 < 16) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- THE RESULT ARRAY after the run is the layer's output. -/
theorem final (c : Dev nD) : (dats m 0 c).arrAt 3 cfg0.N = result m c :=
  (dats m 0 c).arrAt_eq_of_cover 3 (result m c) (fun t _ => flushed_eq m c t) (fun i => cover i)

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.LayerValue

end
-- ==== Proof.LibSigmoid.lean ====
/-
  The logistic function over the extended reals, against the quotient a host program spells for it.

  Over the extended reals the logistic function is by definition the quotient 1 / (1 + e^(-x)), with the
  conventions e^(-oo) = 0 and e^(+oo) = +oo, so that it is 0 at -oo and 1 at +oo. A host program that expands the
  sigmoid writes that very quotient with its own negation, exponential, sum and quotient, and with the
  single-precision word 0x3F800000 for the numerator and the summand; that word denotes the real number 1. Hence a
  kernel's one-operation logistic and the host's four-operation expansion are the same function of x, at every
  extended real x, the infinities included: no finiteness is needed.

  With tanh likewise one function on both sides, a gated recurrent cell
      r = s(a_r + b_r),  z = s(a_z + b_z),  n = tanh(a_n + r * b_n),  h' = (1 - z) * n + z * h
  computed with s the logistic operation is, entry by entry, the cell computed with s the spelled-out quotient.
-/
import Idealize.ShloMosaic.PureOps.Ideal
import Idealize.ShloMosaic.PureOps.Vector

noncomputable section

namespace Cert.Lib.Sigmoid

open Idealize.ShloMosaic

/-- The single-precision word 0x3F800000 denotes the real number 1. -/
theorem ofBits_one_f32 : Ideal.ofBits .f32 0x3F800000#32 = 1 := by
  simp [Ideal.ofBits, Ideal.ieee, -EReal.coe_mul]; norm_num

/-- At one extended real: the logistic operation is the host's spelled-out quotient 1 / (1 + exp (-x)). -/
theorem logistic_eq_quotient (x : Ideal .f32) :
    FloatOps.logistic x
      = FloatOps.hostDivf (Ideal.ofBits .f32 0x3F800000#32)
          (FloatOps.addf (Ideal.ofBits .f32 0x3F800000#32) (FloatOps.hostUnary .exp (FloatOps.hostNegf x))) := by
  rw [ofBits_one_f32]; rfl

/-- Over a whole vector of any shape: a kernel's logistic of x is the host's quotient of the all-ones vector by the
    all-ones vector plus the exponential of the negated x, the all-ones vectors being any vectors one that hold the
    word 0x3F800000 at every index. -/
theorem vec_logistic_eq_quotient {s : Shape} (one one' x : FVec Ideal s .f32)
    (h1 : ∀ i, one i = Ideal.ofBits .f32 0x3F800000#32) (h1' : ∀ i, one' i = Ideal.ofBits .f32 0x3F800000#32) :
    logistic x = Host.divf one (addf one' (Host.exp (Host.negf x))) := by
  funext i
  simp only [logistic, Host.divf, addf, Host.exp, Host.negf, h1 i, h1' i]
  exact logistic_eq_quotient (x i)

/-- tanh is one function whether a kernel or a host program applies it. -/
theorem vec_tanh_eq_host {s : Shape} (x : FVec Ideal s .f32) : tanh x = Host.tanh x := rfl

/-- One gated recurrent cell, over vectors of any shape. With gate pre-activations a_r + b_r, a_z + b_z and
    a_n + r * b_n and the old state h, the new state (1 - z) * n + z * h computed with the kernel's operations (the
    logistic operation, tanh, the scalar 1 broadcast) is the new state computed with the host's (the quotient
    1 / (1 + exp (-x)) for each gate, the host's tanh, all-ones vectors), entry by entry, at every extended real. -/
theorem gru_cell_eq {s : Shape} (ar br az bz an bn h : FVec Ideal s .f32)
    (one_r one_r' one_z one_z' one_s : FVec Ideal s .f32)
    (hr : ∀ i, one_r i = Ideal.ofBits .f32 0x3F800000#32) (hr' : ∀ i, one_r' i = Ideal.ofBits .f32 0x3F800000#32)
    (hz : ∀ i, one_z i = Ideal.ofBits .f32 0x3F800000#32) (hz' : ∀ i, one_z' i = Ideal.ofBits .f32 0x3F800000#32)
    (hs : ∀ i, one_s i = Ideal.ofBits .f32 0x3F800000#32) :
    addf (mulf (subf (broadcast s (Scalar.ofBits .f32 0x3F800000#32)) (logistic (addf az bz)))
            (tanh (addf an (mulf (logistic (addf ar br)) bn))))
         (mulf (logistic (addf az bz)) h)
      = addf (mulf (subf one_s (Host.divf one_z (addf one_z' (Host.exp (Host.negf (addf az bz))))))
                (Host.tanh (addf an (mulf (Host.divf one_r (addf one_r' (Host.exp (Host.negf (addf ar br))))) bn))))
             (mulf (Host.divf one_z (addf one_z' (Host.exp (Host.negf (addf az bz))))) h) := by
  have hb : broadcast s (Scalar.ofBits (F := Ideal) .f32 0x3F800000#32) = one_s := funext fun i => (hs i).symm
  rw [← vec_logistic_eq_quotient one_r one_r' (addf ar br) hr hr', ← vec_logistic_eq_quotient one_z one_z' (addf az bz) hz hz',
    ← vec_tanh_eq_host, hb]

end Cert.Lib.Sigmoid

end
-- ==== Proof.ReferenceValue.lean ====
/-
  The reference program computes the gated feed-forward layer.

  Read one operation at a time, the reference's result at `(r, n)` is a sum over the 768 hidden units `k` of the
  hidden array at `(r, k)` times the down weight at `(n, k)`; the hidden array at `(r, k)` is the product of the
  activated gate and the up projection, each projection a sum over `h` of `x[r,h]` times a weight's `[k,h]`; and the
  activation multiplies the gate pre-activation `g` by the quotient `1 / (1 + exp(-g))`, which over the extended
  reals is the logistic function of `g` by definition (the word 0x3F800000 being the number 1). That is the layer's
  definition, term by term.
-/
import proofs.«118135_j20383914787230_2_alg».proof.Proof.Gen.ReferenceIdeal.Read
import proofs.«118135_j20383914787230_2_alg».proof.Proof.GatedMlp
import proofs.«118135_j20383914787230_2_alg».proof.Proof.LibSigmoid

noncomputable section

namespace Cert.ReferenceIdeal.RefValue

open Cert.ReferenceIdeal Cert.ReferenceIdeal.Read Idealize.ShloMosaic Idealize.ShloMosaic.ValueIdx
open Cert.GatedMlp

/-- The gate projection, read at `(r, k)`: row `r` of `x` against row `k` of the gate weight. -/
theorem gate_at (x0 : (⟨S8192x2048, .f32⟩ : BufTy).Contents (Elt Ideal)) (x1 : (⟨S768x2048, .f32⟩ : BufTy).Contents (Elt Ideal))
    (r : Fin 8192) (k : Fin 768) : val_main_v0 (F := Ideal) x0 x1 (ix2 r k) = proj x0 x1 r k := by
  rw [val_main_v0_apply]
  unfold proj
  refine Finset.sum_congr rfl fun h _ => ?_
  have el : lidx_main_v0 (ix2 r k) h = ix2 r h := funext fun a => by
    match a with
    | ⟨0, _⟩ => rfl
    | ⟨1, _⟩ => rfl
  have er : ridx_main_v0 (ix2 r k) h = ix2 k h := funext fun a => by
    match a with
    | ⟨0, _⟩ => rfl
    | ⟨1, _⟩ => rfl
  rw [el, er]

/-- The up projection, read at `(r, k)`: row `r` of `x` against row `k` of the up weight. -/
theorem up_at (x0 : (⟨S8192x2048, .f32⟩ : BufTy).Contents (Elt Ideal)) (x2 : (⟨S768x2048, .f32⟩ : BufTy).Contents (Elt Ideal))
    (r : Fin 8192) (k : Fin 768) : val_main_v1 (F := Ideal) x0 x2 (ix2 r k) = proj x0 x2 r k := by
  rw [val_main_v1_apply]
  unfold proj
  refine Finset.sum_congr rfl fun h _ => ?_
  have el : lidx_main_v1 (ix2 r k) h = ix2 r h := funext fun a => by
    match a with
    | ⟨0, _⟩ => rfl
    | ⟨1, _⟩ => rfl
  have er : ridx_main_v1 (ix2 r k) h = ix2 k h := funext fun a => by
    match a with
    | ⟨0, _⟩ => rfl
    | ⟨1, _⟩ => rfl
  rw [el, er]

/-- The quotient the reference spells, `1 / (1 + exp(-g))` with `g` the gate projection at an index, is the
    logistic function of `g`. -/
theorem quotient_at (x0 : (⟨S8192x2048, .f32⟩ : BufTy).Contents (Elt Ideal)) (x1 : (⟨S768x2048, .f32⟩ : BufTy).Contents (Elt Ideal))
    (j : S8192x768.Idx) :
    val_main_call0_v5 (F := Ideal) x0 x1 j = Ideal.logistic (val_main_v0 (F := Ideal) x0 x1 j) := by
  rw [val_main_call0_v5_apply, val_main_call0_v4_apply, val_main_call0_cst_0_apply, val_main_call0_v3_apply,
    val_main_call0_v2_apply, val_main_call0_cst_apply, val_main_call0_v1_apply, val_main_call0_v0_apply]
  exact (Cert.Lib.Sigmoid.logistic_eq_quotient (val_main_v0 (F := Ideal) x0 x1 j)).symm

/-- The hidden array at `(r, k)` is hidden unit `k` of token `r`. -/
theorem hidden_at (x0 : (⟨S8192x2048, .f32⟩ : BufTy).Contents (Elt Ideal)) (x1 x2 : (⟨S768x2048, .f32⟩ : BufTy).Contents (Elt Ideal))
    (r : Fin 8192) (k : Fin 768) : val_main_v3 (F := Ideal) x0 x1 x2 (ix2 r k) = hidden x0 x1 x2 r k := by
  rw [val_main_v3_apply, val_main_v2_apply, quotient_at, gate_at, up_at]
  rfl

/-- THE REFERENCE'S RESULT is the layer's output array. -/
theorem reference_eq (x0 : (⟨S8192x2048, .f32⟩ : BufTy).Contents (Elt Ideal)) (x1 x2 : (⟨S768x2048, .f32⟩ : BufTy).Contents (Elt Ideal))
    (x3 : (⟨S2048x768, .f32⟩ : BufTy).Contents (Elt Ideal)) :
    val_main_v4 (F := Ideal) x0 x1 x2 x3 = layer x0 x1 x2 x3 := by
  funext i
  obtain ⟨r, n, rfl⟩ : ∃ (r : Fin 8192) (n : Fin 2048), i = ix2 r n := ⟨i 0, i 1, eq_ix2 i⟩
  rw [val_main_v4_apply, layer_ix2]
  unfold layerAt
  refine Finset.sum_congr rfl fun k _ => ?_
  have el : lidx_main_v4 (ix2 r n) k = ix2 r k := funext fun a => by
    match a with
    | ⟨0, _⟩ => rfl
    | ⟨1, _⟩ => rfl
  have er : ridx_main_v4 (ix2 r n) k = ix2 n k := funext fun a => by
    match a with
    | ⟨0, _⟩ => rfl
    | ⟨1, _⟩ => rfl
  rw [el, er, hidden_at]

end Cert.ReferenceIdeal.RefValue

end
-- ==== Proof.lean ====
/-
  A gated feed-forward layer computed in 16 row blocks equals the layer computed whole.

  The layer maps a token `x[r, ·]` (2048 numbers) to
      out[r, n] = Σ_k (g_k · logistic(g_k) · u_k) · dw[n, k],   g_k = Σ_h x[r,h] · gw[k,h],   u_k = Σ_h x[r,h] · uw[k,h],
  over 768 hidden units `k`. The reference takes the two projections, the activation and the last product as
  whole-array operations, writing the logistic as the quotient `1 / (1 + exp(-g))`. The kernel first transposes the
  three weights, sets the transposed gate and up weights side by side, and then, for each block of 512 tokens,
  multiplies the block by the fused weight, cuts the product into its gate half and its up half, applies
  `g · logistic(g) · u` entry by entry and multiplies by the transposed down weight.

  Over the extended reals a change of float format is the identity, a product accumulated into zero is a plain finite
  sum, and the logistic function IS that quotient, at the infinities too. A transposed weight read at `(h, k)` is the
  weight at `(k, h)`, so both programs form the same sums of the same terms; the kernel's 16 blocks of rows tile the
  result. Nothing in the argument needs the entries to be finite: only sums and products are re-indexed, never
  distributed or cancelled.

  The modules: `GatedMlp` states the layer; `ReferenceValue` reads the reference's result as the layer;
  `BlockPayload` reads the kernel body's stored value at an entry; `FusedWeights` reads the transposed and fused
  weights at an entry; `KernelValue` puts the blocks together into the result array. The kernel's idealization
  rewrote no operation, so there is nothing to preserve beyond the program's own text.
-/
import proofs.«118135_j20383914787230_2_alg».proof.Defs
import proofs.«118135_j20383914787230_2_alg».proof.Proof.Gen.Kernel
import proofs.«118135_j20383914787230_2_alg».proof.Proof.Gen.Kernel.Skeleton
import proofs.«118135_j20383914787230_2_alg».proof.Proof.Gen.Kernel.Launch
import proofs.«118135_j20383914787230_2_alg».proof.Proof.Gen.Kernel.Points
import proofs.«118135_j20383914787230_2_alg».proof.Proof.Gen.Kernel.Frame
import proofs.«118135_j20383914787230_2_alg».proof.Proof.Gen.KernelIdeal
import proofs.«118135_j20383914787230_2_alg».proof.Proof.Gen.KernelIdeal.Skeleton
import proofs.«118135_j20383914787230_2_alg».proof.Proof.Gen.KernelIdeal.Launch
import proofs.«118135_j20383914787230_2_alg».proof.Proof.Gen.KernelIdeal.Points
import proofs.«118135_j20383914787230_2_alg».proof.Proof.Gen.KernelIdeal.Frame
import proofs.«118135_j20383914787230_2_alg».proof.Proof.Gen.ReferenceIdeal
import proofs.«118135_j20383914787230_2_alg».proof.Proof.Gen.Pre_finite_inputs
import proofs.«118135_j20383914787230_2_alg».proof.Proof.Gen.KernelIdeal.Value
import proofs.«118135_j20383914787230_2_alg».proof.Proof.Gen.ReferenceIdeal.Run
import proofs.«118135_j20383914787230_2_alg».proof.Proof.Gen.ReferenceIdeal.Read
import proofs.«118135_j20383914787230_2_alg».proof.Proof.KernelValue
import proofs.«118135_j20383914787230_2_alg».proof.Proof.ReferenceValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories that agree on the four arguments, the kernel's result array and the reference's both end at the
    layer's output of those arguments. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
